-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x128x128 : Shape := ⟨3, ![2, 128, 128]⟩
abbrev S2x800000 : Shape := ⟨2, ![2, 800000]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S800000 : S_.BroadcastsInDim S800000 (![] : Fin 0 → Fin S800000.rank)
  reducesTo_S800000_S_d0 : S800000.ReducesTo [0] S_

variable [Facts]

def fn_part1 {F : FTy → Type} [FloatOps F] (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  main_v18

def fn {F : FTy → Type} [FloatOps F] (main_arg0 : FVec F S50000x128 .f32) (main_arg1 : FVec F S2x128x128 .f32) (main_arg2 : IVec S2x800000 32) (main_arg3 : FVec F S800000 .f32) (main_arg4 : IVec S2x800000 32) (main_arg5 : FVec F S800000 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S2x128x128 .f32 := Host.absf main_arg1
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S800000 .f32 := Host.absf main_arg3
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S800000 .f32 := Host.absf main_arg5
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_v13 main_v16
-- ==== Kernel.lean ====
abbrev S50000x128 : Shape := ⟨2, ![50000, 128]⟩
abbrev S2x128x128 : Shape := ⟨3, ![2, 128, 128]⟩
abbrev S2x800000 : Shape := ⟨2, ![2, 800000]⟩
abbrev S800000 : Shape := ⟨1, ![800000]⟩
abbrev S1x128x128 : Shape := ⟨3, ![1, 128, 128]⟩
abbrev S128x128 : Shape := ⟨2, ![128, 128]⟩
abbrev S128x256 : Shape := ⟨2, ![128, 256]⟩
abbrev S50000x256 : Shape := ⟨2, ![50000, 256]⟩
abbrev S5000x128 : Shape := ⟨2, ![5000, 128]⟩
abbrev S5000x256 : Shape := ⟨2, ![5000, 256]⟩
abbrev S_ : Shape := ⟨0, ![]⟩
abbrev S1x800000 : Shape := ⟨2, ![1, 800000]⟩
abbrev S800000x1 : Shape := ⟨2, ![800000, 1]⟩
abbrev S800000x128 : Shape := ⟨2, ![800000, 128]⟩

abbrev nBuf : Space → Nat
  | .hbm => 61
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S2x128x128, .f32⟩
  | .hbm, ⟨2, _⟩ => ⟨S2x800000, .i32⟩
  | .hbm, ⟨3, _⟩ => ⟨S800000, .f32⟩
  | .hbm, ⟨4, _⟩ => ⟨S2x800000, .i32⟩
  | .hbm, ⟨5, _⟩ => ⟨S800000, .f32⟩
  | .hbm, ⟨6, _⟩ => ⟨S1x128x128, .f32⟩
  | .hbm, ⟨7, _⟩ => ⟨S128x128, .f32⟩
  | .hbm, ⟨8, _⟩ => ⟨S1x128x128, .f32⟩
  | .hbm, ⟨9, _⟩ => ⟨S128x128, .f32⟩
  | .hbm, ⟨10, _⟩ => ⟨S128x256, .f32⟩
  | .hbm, ⟨11, _⟩ => ⟨S50000x256, .f32⟩
  | .hbm, ⟨12, _⟩ => ⟨S50000x128, .f32⟩
  | .hbm, ⟨13, _⟩ => ⟨S50000x128, .f32⟩
  | .hbm, ⟨14, _⟩ => ⟨S_, .f32⟩
  | .hbm, ⟨15, _⟩ => ⟨S50000x128, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S800000x1, .f32⟩
  | .hbm, ⟨30, _⟩ => ⟨S800000x128, .f32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S50000x128, .f32⟩
  | .hbm, ⟨37, _⟩ => ⟨S1x800000, .i32⟩
  | .hbm, ⟨38, _⟩ => ⟨S800000, .i32⟩
  | .hbm, ⟨39, _⟩ => ⟨S1x800000, .i32⟩
  | .hbm, ⟨40, _⟩ => ⟨S800000, .i32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S800000x1, .f32⟩
  | .hbm, ⟨51, _⟩ => ⟨S800000x128, .f32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_2 : Ref sig .tc := ⟨.hbm, 41, rfl⟩
abbrev main_v31 : Ref sig .tc := ⟨.hbm, 42, rfl⟩
abbrev main_v32 : Ref sig .tc := ⟨.hbm, 43, rfl⟩
abbrev main_c_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_call0_cst : Ref sig .tc := ⟨.hbm, 58, rfl⟩
abbrev main_call0_v0 : Ref sig .tc := ⟨.hbm, 59, rfl⟩
abbrev main_v45 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  concatenates_S128x128_S128x128_S128x256_d1 : Shape.Concatenates [S128x128, S128x128] S128x256 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  slices_S50000x256_S50000x128_0_0 : S50000x256.Slices ![0, 0] S50000x128
  slices_S50000x256_S50000x128_0_128 : S50000x256.Slices ![0, 128] S50000x128
  bcast_S_S50000x128 : S_.BroadcastsInDim S50000x128 (![] : Fin 0 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  dot_S5000x128_S128x256_S5000x256_1_0_0_1_n_n_wf : DotDims.WF S5000x128 S128x256 S5000x256 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x128x128 : Shape := ⟨3, ![2, 128, 128]⟩
abbrev S2x800000 : Shape := ⟨2, ![2, 800000]⟩
abbrev S800000 : Shape := ⟨1, ![800000]⟩
abbrev S_ : Shape := ⟨0, ![]⟩
abbrev S1x128x128 : Shape := ⟨3, ![1, 128, 128]⟩
abbrev S128x128 : Shape := ⟨2, ![128, 128]⟩
abbrev S1x800000 : Shape := ⟨2, ![1, 800000]⟩
abbrev S800000x1 : Shape := ⟨2, ![800000, 1]⟩
abbrev S800000x128 : Shape := ⟨2, ![800000, 128]⟩

abbrev nBuf : Space → Nat
  | .hbm => 59
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x128x128, .f32⟩
  | .hbm, ⟨2, _⟩ => ⟨S2x800000, .i32⟩
  | .hbm, ⟨3, _⟩ => ⟨S800000, .f32⟩
  | .hbm, ⟨4, _⟩ => ⟨S2x800000, .i32⟩
  | .hbm, ⟨5, _⟩ => ⟨S800000, .f32⟩
  | .hbm, ⟨6, _⟩ => ⟨S_, .f32⟩
  | .hbm, ⟨7, _⟩ => ⟨S50000x128, .f32⟩
  | .hbm, ⟨8, _⟩ => ⟨S1x128x128, .f32⟩
  | .hbm, ⟨9, _⟩ => ⟨S128x128, .f32⟩
  | .hbm, ⟨10, _⟩ => ⟨S1x128x128, .f32⟩
  | .hbm, ⟨11, _⟩ => ⟨S128x128, .f32⟩
  | .hbm, ⟨12, _⟩ => ⟨S50000x128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S800000x1, .f32⟩
  | .hbm, ⟨27, _⟩ => ⟨S800000x128, .f32⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S1x800000, .i32⟩
  | .hbm, ⟨36, _⟩ => ⟨S800000, .i32⟩
  | .hbm, ⟨37, _⟩ => ⟨S1x800000, .i32⟩
  | .hbm, ⟨38, _⟩ => ⟨S800000, .i32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S800000x1, .f32⟩
  | .hbm, ⟨49, _⟩ => ⟨S800000x128, .f32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_2 : Ref sig .tc := ⟨.hbm, 39, rfl⟩
abbrev main_v29 : Ref sig .tc := ⟨.hbm, 40, rfl⟩
abbrev main_v30 : Ref sig .tc := ⟨.hbm, 41, rfl⟩
abbrev main_c_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_call0_cst : Ref sig .tc := ⟨.hbm, 56, rfl⟩
abbrev main_call0_v0 : Ref sig .tc := ⟨.hbm, 57, rfl⟩
abbrev main_v43 : Ref sig .tc := ⟨.hbm, 58, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Product.lean ====
/-
  The dense product the kernel's region computes, as one function of whole arrays: a [50000,128] array times a
  [128,256] array, entry (r, q) the sum over k of x(r, k) · w(k, q) on the extended reals. It is stated with no
  accumulator and no format change: at the ideal instance a product into a zero accumulator is the bare sum, and a
  change of float format is the identity.
-/
import Idealize.ShloMosaic.PureOps.Ideal
import Idealize.ShloMosaic.Lib.ValueIdx

noncomputable section

namespace Cert.Spmm

open Idealize.ShloMosaic Idealize.ShloMosaic.ValueIdx

/-- Entry (r, q) of the product of `x` : [50000,128] and `w` : [128,256]: the sum over the 128 contracted
    positions of x(r, k) · w(k, q). -/
def product (x : FVec Ideal ⟨2, ![50000, 128]⟩ .f32) (w : FVec Ideal ⟨2, ![128, 256]⟩ .f32) :
    FVec Ideal ⟨2, ![50000, 256]⟩ .f32 :=
  fun i => ∑ k : Fin 128, x (ix2 (i 0) k) * w (ix2 k (i 1))

/-- The same at an index written by its two coordinates. -/
theorem product_apply (x : FVec Ideal ⟨2, ![50000, 128]⟩ .f32) (w : FVec Ideal ⟨2, ![128, 256]⟩ .f32)
    (r : Fin 50000) (q : Fin 256) :
    product x w (ix2 r q) = ∑ k : Fin 128, x (ix2 r k) * w (ix2 k q) := rfl

end Cert.Spmm

end
-- ==== Proof.RegionArray.lean ====
/-
  The array the kernel's one region leaves. The grid has ten points; point t loads rows 5000·t … 5000·t + 4999 of x
  (a [5000,128] block), loads the whole [128,256] weight array, multiplies them into a zero accumulator and stores the
  [5000,256] result as rows 5000·t … 5000·t + 4999 of the output. At the ideal instance the two changes of float format
  are the identity and the accumulator contributes nothing, so entry (p, q) of what point t stores is the sum over k of
  x(5000·t + p, k) · w(k, q): block t of ONE function of the whole arrays, the dense product. The ten blocks tile the
  [50000,256] output (row r lies in block r / 5000), so after the region the output array IS the dense product of x and
  the weight array as the region finds them.
-/
import proofs.«106283_j2465311228496_1_alg».proof.Proof.Gen.KernelIdeal.Frame
import proofs.«106283_j2465311228496_1_alg».proof.Proof.Product
import Idealize.ShloMosaic.Lib.Pipeline.Value
import Idealize.ShloMosaic.Lib.ValueIdx
import Idealize.ShloMosaic.PureOps.Ideal.Laws

set_option maxRecDepth 16384

noncomputable section

namespace Cert.KernelIdeal.Region

open Cert.KernelIdeal Cert.KernelIdeal.Gen Cert.Spmm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## One point's payload, index by index -/

/-- The contracted axis of the block product has one coordinate, which runs over the 128 columns of the left block:
    the left operand is read at (p, k). -/
theorem lhs_row (j : S5000x256.Idx) (s : dot_S5000x128_S128x256_S5000x256_1_0_0_1_n_n.contr.Idx) :
    (dot_S5000x128_S128x256_S5000x256_1_0_0_1_n_n.lhsIdx j s 0).val = (j 0).val := by
  unfold DotDims.lhsIdx
  rw [dif_neg (show ¬(0 : Fin S5000x128.rank) ∈ dot_S5000x128_S128x256_S5000x256_1_0_0_1_n_n.lhsBatch by decide),
    dif_pos (show (0 : Fin S5000x128.rank) ∈ dot_S5000x128_S128x256_S5000x256_1_0_0_1_n_n.lhsNonContracting by decide)]
  rfl
theorem lhs_col (j : S5000x256.Idx) (s : dot_S5000x128_S128x256_S5000x256_1_0_0_1_n_n.contr.Idx) :
    (dot_S5000x128_S128x256_S5000x256_1_0_0_1_n_n.lhsIdx j s 1).val = (s ⟨0, by decide⟩).val :=
  dot_S5000x128_S128x256_S5000x256_1_0_0_1_n_n.lhsIdx_val_of_single rfl j s
/-- and the right operand at (k, q). -/
theorem rhs_row (j : S5000x256.Idx) (s : dot_S5000x128_S128x256_S5000x256_1_0_0_1_n_n.contr.Idx) :
    (dot_S5000x128_S128x256_S5000x256_1_0_0_1_n_n.rhsIdx j s 0).val = (s ⟨0, by decide⟩).val :=
  dot_S5000x128_S128x256_S5000x256_1_0_0_1_n_n.rhsIdx_val_of_single rfl j s
theorem rhs_col (j : S5000x256.Idx) (s : dot_S5000x128_S128x256_S5000x256_1_0_0_1_n_n.contr.Idx) :
    (dot_S5000x128_S128x256_S5000x256_1_0_0_1_n_n.rhsIdx j s 1).val = (j 1).val := by
  unfold DotDims.rhsIdx
  rw [dif_neg (show ¬(1 : Fin S128x256.rank) ∈ dot_S5000x128_S128x256_S5000x256_1_0_0_1_n_n.rhsBatch by decide),
    dif_pos (show (1 : Fin S128x256.rank) ∈ dot_S5000x128_S128x256_S5000x256_1_0_0_1_n_n.rhsNonContracting by decide)]
  rfl

/-- Entry (p, q) of what the body stores, from the two loaded blocks: the sum over k of x0(p, k) · x1(k, q). The
    format changes are the identity at the ideal instance, the shape cast is between equal shapes, and a product into
    the zero accumulator is the bare sum. -/
theorem payload_apply (x0 : Vec Ideal S5000x128 .f32) (x1 : Vec Ideal S128x256 .f32) (p : Fin 5000) (q : Fin 256) :
    k0_pay1 (F := Ideal) x0 x1 (ix2 p q) = ∑ k : Fin 128, x0 (ix2 p k) * x1 (ix2 k q) := by
  unfold k0_pay1
  rw [shapeCast_self]
  refine (Ideal.matmul_constant_zero_apply dot_S5000x128_S128x256_S5000x256_1_0_0_1_n_n none
    (truncf .bf16 x0 bitsLt_bf16_f32) (truncf .bf16 x1 bitsLt_bf16_f32) (ix2 p q)).trans ?_
  rw [← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q)
      ((contrEquiv1 dot_S5000x128_S128x256_S5000x256_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x256_S5000x256_1_0_0_1_n_n.rhsIdx (ix2 p q)
      ((contrEquiv1 dot_S5000x128_S128x256_S5000x256_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-- The same against the whole arrays: if the left block is rows 5000·b … of `x` and the right block is all of `w`,
    entry `j` of the payload is entry `i` of the dense product, `i` being `j` moved down by 5000·b rows. -/
theorem payload_is_product (x : FVec Ideal S50000x128 .f32) (w : FVec Ideal S128x256 .f32)
    (x0 : Vec Ideal S5000x128 .f32) (x1 : Vec Ideal S128x256 .f32) (b : Nat)
    (hx0 : ∀ (y : S5000x128.Idx) (r : S50000x128.Idx), (r 0).val = b * 5000 + (y 0).val → (r 1).val = (y 1).val → x0 y = x r)
    (hx1 : ∀ y : S128x256.Idx, x1 y = w y)
    (j : S5000x256.Idx) (i : S50000x256.Idx) (hi0 : (i 0).val = b * 5000 + (j 0).val) (hi1 : (i 1).val = (j 1).val) :
    k0_pay1 (F := Ideal) x0 x1 j = product x w i := by
  obtain ⟨p, q, rfl⟩ : ∃ (p : Fin 5000) (q : Fin 256), j = ix2 p q := ⟨j 0, j 1, eq_ix2 j⟩
  obtain ⟨r, q', rfl⟩ : ∃ (r : Fin 50000) (q' : Fin 256), i = ix2 r q' := ⟨i 0, i 1, eq_ix2 i⟩
  obtain rfl : q' = q := Fin.ext hi1
  rw [payload_apply, product_apply]
  refine Finset.sum_congr rfl fun k _ => ?_
  rw [hx0 (ix2 p k) (ix2 r k) hi0 rfl, hx1]

/-! ## The index maps over the grid -/

theorem hz : (![0, 0] : Fin 2 → Nat) = fun _ => 0 := funext fun a => by fin_cases a <;> rfl

/-- Decided over the ten points: the x window and the output window are at the same row block, which is the point's
    number; every other block index is zero. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-! ## What a point writes back, and the array after the region -/

/-- Point `t` writes back block `t` of the dense product of x and the weight array as the region finds them. -/
theorem flushed_eq (c : Dev nD) (t : Fin cfg0.N) :
    (dats m 0 c).flushed 2 t
      = ((cfg0.win 2).blk t).view.read (Elt Ideal) (product (V m c main_arg0) (V m c main_v4)) := by
  show (cfg0.win 2).cut (grid0.coords t) ((dats m 0 c).after 2 t) = _
  rw [after0_2]
  unfold out0_2
  rw [View.canon_unit_zero hz]
  simp only [View.ld_unit_zero (S := S5000x128) hz, View.ld_unit_zero (S := S128x256) hz]
  obtain ⟨e0, e1, e2, e3, e4, e5⟩ := idx_facts t
  funext j
  show k0_pay1 (F := Ideal) (iblk m c 0 t) (iblk m c 1 t) j
    = product (V m c main_arg0) (V m c main_v4) (((cfg0.win 2).blk t).view.emb j)
  refine payload_is_product (V m c main_arg0) (V m c main_v4) (iblk m c 0 t) (iblk m c 1 t) (win0_2.index t (0 : Fin 2))
    ?_ ?_ j (((cfg0.win 2).blk t).view.emb j) ?_ ?_
  · intro y r h0 h1
    show V m c main_arg0 (((cfg0.win 0).blk t).view.emb y) = V m c main_arg0 r
    refine congrArg (V m c main_arg0) (funext fun a => Fin.ext ?_)
    match a with
    | ⟨0, _⟩ => show win0_0.index t (0 : Fin 2) * 5000 + 1 * (y 0).val = (r 0).val; omega
    | ⟨1, _⟩ => show win0_0.index t (1 : Fin 2) * 128 + 1 * (y 1).val = (r 1).val; omega
  · intro y
    show V m c main_v4 (((cfg0.win 1).blk t).view.emb y) = V m c main_v4 y
    refine congrArg (V m c main_v4) (funext fun a => Fin.ext ?_)
    match a with
    | ⟨0, _⟩ => show win0_1.index t (0 : Fin 2) * 128 + 1 * (y 0).val = (y 0).val; omega
    | ⟨1, _⟩ => show win0_1.index t (1 : Fin 2) * 256 + 1 * (y 1).val = (y 1).val; omega
  · show win0_2.index t (0 : Fin 2) * 5000 + 1 * (j 0).val = win0_2.index t (0 : Fin 2) * 5000 + (j 0).val; omega
  · show win0_2.index t (1 : Fin 2) * 256 + 1 * (j 1).val = (j 1).val; omega

/-- An index of the output array is in point `t`'s block iff each coordinate is in the block's range on its axis. -/
theorem mem_blk (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v5).slice (win0_2.rect t)).set ↔ _
  rw [View.set_slice_whole, Rect.mem_set_unit]
  exact Iff.rfl

/-- Every index of the output array is in some point's block: row r is in block r / 5000. -/
theorem cover (i : S50000x256.Idx) :
    ∃ t : Fin cfg0.N, (cfg0.win 2).flush t = true ∧ i ∈ ((cfg0.win 2).blk t).view.set := by
  have h0 : (i 0).val < 50000 := (i 0).isLt
  have h1 : (i 1).val < 256 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e0, e1, e2, e3, e4, e5⟩ := idx_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 256 ≤ (i 1).val ∧ (i 1).val < win0_2.index t (1 : Fin 2) * 256 + 256
    omega

/-- The output array after the region is the dense product of x and the weight array as the region finds them. -/
theorem region_array (c : Dev nD) :
    (dats m 0 c).arrAt 2 cfg0.N = product (V m c main_arg0) (V m c main_v4) :=
  (dats m 0 c).arrAt_eq_of_cover 2 (product (V m c main_arg0) (V m c main_v4)) (fun t _ => flushed_eq m c t) cover

end Cert.KernelIdeal.Region

end
-- ==== Proof.KernelChain.lean ====
/-
  The chain both programs apply to their two dense products (one support's sparse product out[row e] += p[col e] ·
  weight e for each support, added onto zeros, then the maximum with zero), stated in the kernel program's vocabulary:
  the same operations, in the same order, as the reference's.
-/
import proofs.«106283_j2465311228496_1_alg».proof.Proof.Gen.KernelIdeal

noncomputable section

namespace Cert.KernelIdeal.Chain

open Cert.KernelIdeal Cert.KernelIdeal.Gen
open Idealize.ShloMosaic Idealize.ShloMosaic.TcCoe Idealize.SL.Sem

variable {F : FTy → Type} [FloatOps F]

/-- The row indices of an edge list [2,800000]: its first row, as a vector of 800000. -/
def edgeRows (e : IVec S2x800000 32) : IVec S800000 32 :=
  shapeCast _ (extractStridedSlice S1x800000 ![0, 0] e slices_S2x800000_S1x800000_0_0) shapeCasts_S1x800000_S800000

/-- Its column indices: the second row. -/
def edgeCols (e : IVec S2x800000 32) : IVec S800000 32 :=
  shapeCast _ (extractStridedSlice S1x800000 ![1, 0] e slices_S2x800000_S1x800000_1_0) shapeCasts_S1x800000_S800000

/-- An index below zero is moved up by the row count 50000; any other is kept. -/
def wrapped (j : IVec S800000 32) : IVec S800000 32 :=
  select (cmpi .slt j (broadcastInDim S800000 ![] bcast_S_S800000 (constantI S_ 32 0#32)))
    (addi j (broadcastInDim S800000 ![] bcast_S_S800000 (constantI S_ 32 50000#32))) j

/-- The [50000,128] array of zeros. -/
def zeros : FVec F S50000x128 .f32 :=
  broadcastInDim S50000x128 ![] bcast_S_S50000x128 (constant S_ .f32 0x00000000#32)

/-- One support's sparse product: the rows of `p` gathered at the wrapped column indices, each scaled by its edge's
    weight (the weights broadcast along the row), scatter-added at the row indices into zeros. -/
def spmm (gd : GatherDims S50000x128 S800000x1 S800000x128) (sd : ScatterDims S50000x128 S800000x1 S800000x128)
    (p : FVec F S50000x128 .f32) (e : IVec S2x800000 32) (a : FVec F S800000 .f32) : FVec F S50000x128 .f32 :=
  Host.scatterAdd sd zeros (broadcastInDim S800000x1 ![0] bcast_S800000_S800000x1_0 (edgeRows e))
    (mulf (Host.gather gd p (broadcastInDim S800000x1 ![0] bcast_S800000_S800000x1_0 (wrapped (edgeCols e))))
      (broadcastInDim S800000x128 ![0, 1] bcast_S800000x1_S800000x128_0_1
        (broadcastInDim S800000x1 ![0] bcast_S800000_S800000x1_0 a)))

/-- The whole chain after the two dense products `p0`, `p1`: the two supports' sparse products added onto zeros, then
    the maximum with zero. -/
def tail (gd : GatherDims S50000x128 S800000x1 S800000x128) (sd : ScatterDims S50000x128 S800000x1 S800000x128)
    (p0 p1 : FVec F S50000x128 .f32) (e0 : IVec S2x800000 32) (a0 : FVec F S800000 .f32)
    (e1 : IVec S2x800000 32) (a1 : FVec F S800000 .f32) : FVec F S50000x128 .f32 :=
  maximumf (addf (addf zeros (spmm gd sd p0 e0 a0)) (spmm gd sd p1 e1 a1)) zeros

end Cert.KernelIdeal.Chain

end
-- ==== Proof.KernelTail.lean ====
/-
  The kernel program's host lines after its region, read back. They cut the region's [50000,256] output into its left
  and right 128 columns and then apply, line for line, the chain of the two sparse products (wrap the column indices,
  gather, scale by the edge weights, scatter-add at the row indices, add, maximum with zero). So the program's result
  is that chain — one function — of the two cuts of whatever the region left and of the four edge arguments; the chain
  itself is never opened.
-/
import proofs.«106283_j2465311228496_1_alg».proof.Proof.Gen.KernelIdeal.Frame
import proofs.«106283_j2465311228496_1_alg».proof.Proof.KernelChain
import Idealize.ShloMosaic.Lib.StableHlo.Run

set_option maxRecDepth 16384

noncomputable section

namespace Cert.KernelIdeal.AfterRegion

open Cert.KernelIdeal Cert.KernelIdeal.Gen
open Idealize.ShloMosaic Idealize.ShloMosaic.TcCoe Idealize.SL.Sem Idealize.ShloMosaic.StableHlo

variable {F : FTy → Type} [FloatOps F]

/-- From ANY buffer contents `W` at the region's exit, at any float values, the lines after the region leave in the
    result buffer the chain of the two column cuts of the region's output and of the edge arguments, all read from `W`. -/
theorem lines_after (W : Valuation τ sig (Elt F)) :
    StableHlo.after (hostOps1 (F := F) ++ hostOps1_1 (F := F)) W (Proc.devRef .tc main_v45)
      = Cert.KernelIdeal.Chain.tail (F := F) gather_S50000x128_S800000x1_S800000x128_1_0_n_n_0_1_1128
          scatter_S50000x128_S800000x1_S800000x128_1_0_0_1
          (extractStridedSlice S50000x128 ![0, 0] (W (Proc.devRef .tc main_v5)) slices_S50000x256_S50000x128_0_0)
          (extractStridedSlice S50000x128 ![0, 128] (W (Proc.devRef .tc main_v5)) slices_S50000x256_S50000x128_0_128)
          (W (Proc.devRef .tc main_arg2)) (W (Proc.devRef .tc main_arg3))
          (W (Proc.devRef .tc main_arg4)) (W (Proc.devRef .tc main_arg5)) := by
  simp only [hostOps1, hostOps1_1, List.cons_append, List.nil_append]
  after_results_simp
  rfl

end Cert.KernelIdeal.AfterRegion

end
-- ==== Proof.Slices.lean ====
/-
  The one law that joins the two programs. The kernel multiplies x by the two per-support weight matrices set side by
  side, [W0 | W1] : [128,256], and afterwards cuts the [50000,256] product into its left and right 128 columns; the
  reference multiplies x by W0 and by W1 separately. Entry (r, q) of the left cut is the sum over k of
  x(r, k) · [W0 | W1](k, q) with q < 128, and column q of the side-by-side array is column q of W0; entry (r, q) of the
  right cut reads column 128 + q, which is column q of W1. So each cut IS the reference's product, term by term of the
  same sum over k: no arithmetic law is needed, only where each factor is read.
-/
import proofs.«106283_j2465311228496_1_alg».proof.Proof.Gen.ReferenceIdeal.Read
import proofs.«106283_j2465311228496_1_alg».proof.Proof.Product
import Idealize.ShloMosaic.Lib.Pipeline.Value
import Idealize.ShloMosaic.Lib.ValueIdx

noncomputable section

namespace Cert.Spmm

open Cert.ReferenceIdeal Cert.ReferenceIdeal.Gen Cert.ReferenceIdeal.Read
open Idealize.ShloMosaic Idealize.ShloMosaic.TcCoe Idealize.ShloMosaic.ValueIdx

/-- The left 128 columns of x · [W0 | W1] are the reference's x · W0. -/
theorem left_columns (x0 : FVec Ideal ⟨2, ![50000, 128]⟩ .f32) (x1 : FVec Ideal ⟨3, ![2, 128, 128]⟩ .f32)
    (hc : Shape.Concatenates [(⟨2, ![128, 128]⟩ : Shape), ⟨2, ![128, 128]⟩] ⟨2, ![128, 256]⟩ 1)
    (hs : (⟨2, ![50000, 256]⟩ : Shape).Slices ![0, 0] ⟨2, ![50000, 128]⟩) :
    extractStridedSlice ⟨2, ![50000, 128]⟩ ![0, 0]
        (product x0 (concatenate ⟨2, ![128, 256]⟩ 1
          [⟨⟨2, ![128, 128]⟩, val_main_v2 (F := Ideal) x1⟩, ⟨⟨2, ![128, 128]⟩, val_main_v4 (F := Ideal) x1⟩] hc)) hs
      = val_main_v5 (F := Ideal) x0 x1 := by
  funext i
  obtain ⟨r, q, rfl⟩ : ∃ (r : Fin 50000) (q : Fin 128), i = ix2 r q := ⟨i 0, i 1, eq_ix2 i⟩
  have hq : q.val < 256 := by have := q.isLt; omega
  rw [extractStridedSlice_apply ![0, 0] _ hs (ix2 r q) (ix2 r (⟨q.val, hq⟩ : Fin 256)) (fun a => match a with
      | ⟨0, _⟩ => by show r.val = 0 + r.val; omega
      | ⟨1, _⟩ => by show q.val = 0 + q.val; omega),
    product_apply, val_main_v5_apply]
  refine Finset.sum_congr rfl fun k _ => ?_
  have hl : lidx_main_v5 (ix2 r q) k = ix2 r k := funext fun a => Fin.ext (by
    match a with
    | ⟨0, _⟩ => rfl
    | ⟨1, _⟩ => rfl)
  have hr : ridx_main_v5 (ix2 r q) k = ix2 k q := funext fun a => Fin.ext (by
    match a with
    | ⟨0, _⟩ => rfl
    | ⟨1, _⟩ => rfl)
  rw [hl, hr]
  refine congrArg (x0 (ix2 r k) * ·) ?_
  exact concatenate_pair_apply_left 1 _ _ hc (ix2 k (⟨q.val, hq⟩ : Fin 256)) rfl (ix2 k q) (fun b => match b with
    | ⟨0, _⟩ => rfl
    | ⟨1, _⟩ => rfl)

/-- The right 128 columns of x · [W0 | W1] are the reference's x · W1. -/
theorem right_columns (x0 : FVec Ideal ⟨2, ![50000, 128]⟩ .f32) (x1 : FVec Ideal ⟨3, ![2, 128, 128]⟩ .f32)
    (hc : Shape.Concatenates [(⟨2, ![128, 128]⟩ : Shape), ⟨2, ![128, 128]⟩] ⟨2, ![128, 256]⟩ 1)
    (hs : (⟨2, ![50000, 256]⟩ : Shape).Slices ![0, 128] ⟨2, ![50000, 128]⟩) :
    extractStridedSlice ⟨2, ![50000, 128]⟩ ![0, 128]
        (product x0 (concatenate ⟨2, ![128, 256]⟩ 1
          [⟨⟨2, ![128, 128]⟩, val_main_v2 (F := Ideal) x1⟩, ⟨⟨2, ![128, 128]⟩, val_main_v4 (F := Ideal) x1⟩] hc)) hs
      = val_main_v24 (F := Ideal) x0 x1 := by
  funext i
  obtain ⟨r, q, rfl⟩ : ∃ (r : Fin 50000) (q : Fin 128), i = ix2 r q := ⟨i 0, i 1, eq_ix2 i⟩
  have hq : 128 + q.val < 256 := by have := q.isLt; omega
  rw [extractStridedSlice_apply ![0, 128] _ hs (ix2 r q) (ix2 r (⟨128 + q.val, hq⟩ : Fin 256)) (fun a => match a with
      | ⟨0, _⟩ => by show r.val = 0 + r.val; omega
      | ⟨1, _⟩ => by show 128 + q.val = 128 + q.val; rfl),
    product_apply, val_main_v24_apply]
  refine Finset.sum_congr rfl fun k _ => ?_
  have hl : lidx_main_v24 (ix2 r q) k = ix2 r k := funext fun a => Fin.ext (by
    match a with
    | ⟨0, _⟩ => rfl
    | ⟨1, _⟩ => rfl)
  have hr : ridx_main_v24 (ix2 r q) k = ix2 k q := funext fun a => Fin.ext (by
    match a with
    | ⟨0, _⟩ => rfl
    | ⟨1, _⟩ => rfl)
  rw [hl, hr]
  refine congrArg (x0 (ix2 r k) * ·) ?_
  exact concatenate_pair_apply_right 1 _ _ hc (ix2 k (⟨128 + q.val, hq⟩ : Fin 256)) rfl rfl (ix2 k q)
    (fun b hb => match b, hb with
      | ⟨0, _⟩, _ => rfl
      | ⟨1, _⟩, hb => absurd rfl hb)
    (by show q.val + 128 = 128 + q.val; omega)

end Cert.Spmm

end
-- ==== Proof.Tail.lean ====
/-
  What both programs do with the two dense products. Given p0 = x·W0 and p1 = x·W1 (each [50000,128]), an edge list
  (rows, cols) : [2,800000] and edge weights : [800000] per support, each support contributes the sparse product
  out[row e] += p[col e] · weight e — the rows of p gathered at the (wrapped) column indices, scaled by the edge weights
  and scatter-added at the row indices into a zero array — and the result is max(0 + s0 + s1, 0). The gather and the
  scatter-add are never opened: the two programs apply the SAME operations in the same order, so it is enough to name
  that chain as one function of (p0, p1) and the four edge arguments, and to show that the two programs feed it equal
  products. This module states the chain in the reference program's vocabulary and reads the reference's result as the
  chain of its two dense products.
-/
import proofs.«106283_j2465311228496_1_alg».proof.Proof.Gen.ReferenceIdeal.Read

noncomputable section

namespace Cert.ReferenceIdeal.Chain

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- The row indices of an edge list [2,800000]: its first row, as a vector of 800000. -/
def edgeRows (e : IVec S2x800000 32) : IVec S800000 32 :=
  shapeCast _ (extractStridedSlice S1x800000 ![0, 0] e slices_S2x800000_S1x800000_0_0) shapeCasts_S1x800000_S800000

/-- Its column indices: the second row. -/
def edgeCols (e : IVec S2x800000 32) : IVec S800000 32 :=
  shapeCast _ (extractStridedSlice S1x800000 ![1, 0] e slices_S2x800000_S1x800000_1_0) shapeCasts_S1x800000_S800000

/-- An index below zero is moved up by the row count 50000; any other is kept. -/
def wrapped (j : IVec S800000 32) : IVec S800000 32 :=
  select (cmpi .slt j (broadcastInDim S800000 ![] bcast_S_S800000 (constantI S_ 32 0#32)))
    (addi j (broadcastInDim S800000 ![] bcast_S_S800000 (constantI S_ 32 50000#32))) j

/-- The [50000,128] array of zeros. -/
def zeros : FVec F S50000x128 .f32 :=
  broadcastInDim S50000x128 ![] bcast_S_S50000x128 (constant S_ .f32 0x00000000#32)

/-- One support's sparse product: the rows of `p` gathered at the wrapped column indices, each scaled by its edge's
    weight (the weights broadcast along the row), scatter-added at the row indices into zeros. -/
def spmm (gd : GatherDims S50000x128 S800000x1 S800000x128) (sd : ScatterDims S50000x128 S800000x1 S800000x128)
    (p : FVec F S50000x128 .f32) (e : IVec S2x800000 32) (a : FVec F S800000 .f32) : FVec F S50000x128 .f32 :=
  Host.scatterAdd sd zeros (broadcastInDim S800000x1 ![0] bcast_S800000_S800000x1_0 (edgeRows e))
    (mulf (Host.gather gd p (broadcastInDim S800000x1 ![0] bcast_S800000_S800000x1_0 (wrapped (edgeCols e))))
      (broadcastInDim S800000x128 ![0, 1] bcast_S800000x1_S800000x128_0_1
        (broadcastInDim S800000x1 ![0] bcast_S800000_S800000x1_0 a)))

/-- The whole chain after the two dense products `p0`, `p1`: the two supports' sparse products added onto zeros, then
    the maximum with zero. -/
def tail (gd : GatherDims S50000x128 S800000x1 S800000x128) (sd : ScatterDims S50000x128 S800000x1 S800000x128)
    (p0 p1 : FVec F S50000x128 .f32) (e0 : IVec S2x800000 32) (a0 : FVec F S800000 .f32)
    (e1 : IVec S2x800000 32) (a1 : FVec F S800000 .f32) : FVec F S50000x128 .f32 :=
  maximumf (addf (addf zeros (spmm gd sd p0 e0 a0)) (spmm gd sd p1 e1 a1)) zeros

/-- The reference's result is the chain applied to its two dense products x·W0 and x·W1: its operations after the two
    products, in program order, are the chain's. -/
theorem reference_is_tail (x0 : FVec Ideal S50000x128 .f32) (x1 : FVec Ideal S2x128x128 .f32)
    (x2 : IVec S2x800000 32) (x3 : FVec Ideal S800000 .f32)
    (x4 : IVec S2x800000 32) (x5 : FVec Ideal S800000 .f32) :
    val_main_v43 (F := Ideal) x0 x1 x2 x3 x4 x5
      = tail (F := Ideal) gather_S50000x128_S800000x1_S800000x128_1_0_n_n_0_1_1128 scatter_S50000x128_S800000x1_S800000x128_1_0_0_1
          (val_main_v5 (F := Ideal) x0 x1) (val_main_v24 (F := Ideal) x0 x1) x2 x3 x4 x5 := by
  rw [← val_main_v43_eq]
  unfold tail spmm zeros wrapped edgeRows edgeCols val_main_v5 val_main_v24 val_main_v2 val_main_v4 val_main_v1 val_main_v3
  rfl

end Cert.ReferenceIdeal.Chain

end
-- ==== Proof.ChainsAgree.lean ====
/-
  The chain after the dense products is ONE function: its two spellings — in the kernel program's vocabulary and in the
  reference's — apply the same operations with the same shapes, and the two programs' descriptions of the gather (row
  r of the result is row index[r] of the operand) and of the scatter-add (row r of the update is added into row index[r])
  are the same records. So the kernel program's chain of two arrays is the reference's chain of the same two arrays.
-/
import proofs.«106283_j2465311228496_1_alg».proof.Proof.Tail
import proofs.«106283_j2465311228496_1_alg».proof.Proof.KernelChain

noncomputable section

namespace Cert.Spmm

open Idealize.ShloMosaic

/-- The two programs describe the gather by the same record. -/
theorem gather_eq :
    Cert.KernelIdeal.gather_S50000x128_S800000x1_S800000x128_1_0_n_n_0_1_1128
      = Cert.ReferenceIdeal.gather_S50000x128_S800000x1_S800000x128_1_0_n_n_0_1_1128 := rfl

/-- and the scatter-add by the same record. -/
theorem scatter_eq :
    Cert.KernelIdeal.scatter_S50000x128_S800000x1_S800000x128_1_0_0_1
      = Cert.ReferenceIdeal.scatter_S50000x128_S800000x1_S800000x128_1_0_0_1 := rfl

/-- The two spellings of the chain are one function of the records, the two products and the edge arguments. -/
theorem chains_agree
    (gd : GatherDims Cert.KernelIdeal.S50000x128 Cert.KernelIdeal.S800000x1 Cert.KernelIdeal.S800000x128)
    (sd : ScatterDims Cert.KernelIdeal.S50000x128 Cert.KernelIdeal.S800000x1 Cert.KernelIdeal.S800000x128)
    (p0 p1 : FVec Ideal Cert.KernelIdeal.S50000x128 .f32)
    (e0 : IVec Cert.KernelIdeal.S2x800000 32) (a0 : FVec Ideal Cert.KernelIdeal.S800000 .f32)
    (e1 : IVec Cert.KernelIdeal.S2x800000 32) (a1 : FVec Ideal Cert.KernelIdeal.S800000 .f32) :
    Cert.KernelIdeal.Chain.tail (F := Ideal) gd sd p0 p1 e0 a0 e1 a1
      = Cert.ReferenceIdeal.Chain.tail (F := Ideal) gd sd p0 p1 e0 a0 e1 a1 := rfl

/-- The kernel program's chain, with its own records, is the reference's chain with the reference's records. -/
theorem kernel_chain_eq (p0 p1 : FVec Ideal Cert.KernelIdeal.S50000x128 .f32)
    (e0 : IVec Cert.KernelIdeal.S2x800000 32) (a0 : FVec Ideal Cert.KernelIdeal.S800000 .f32)
    (e1 : IVec Cert.KernelIdeal.S2x800000 32) (a1 : FVec Ideal Cert.KernelIdeal.S800000 .f32) :
    Cert.KernelIdeal.Chain.tail (F := Ideal) Cert.KernelIdeal.gather_S50000x128_S800000x1_S800000x128_1_0_n_n_0_1_1128
        Cert.KernelIdeal.scatter_S50000x128_S800000x1_S800000x128_1_0_0_1 p0 p1 e0 a0 e1 a1
      = Cert.ReferenceIdeal.Chain.tail (F := Ideal) Cert.ReferenceIdeal.gather_S50000x128_S800000x1_S800000x128_1_0_n_n_0_1_1128
        Cert.ReferenceIdeal.scatter_S50000x128_S800000x1_S800000x128_1_0_0_1 p0 p1 e0 a0 e1 a1 :=
  (chains_agree _ _ p0 p1 e0 a0 e1 a1).trans
    (congrArg₂ (fun g s => Cert.ReferenceIdeal.Chain.tail (F := Ideal) g s p0 p1 e0 a0 e1 a1) gather_eq scatter_eq)

end Cert.Spmm

end
-- ==== Proof.KernelRun.lean ====
/-
  The kernel program's run, read to the end. Before the region the host sets the two weight matrices side by side,
  [W0 | W1]; the region leaves x · [W0 | W1] (the dense product, block by block); the lines after it cut that into its
  two halves of 128 columns and apply the shared chain. The left half is x · W0 and the right half x · W1 — the two dense
  products the reference computes — so the kernel program's result is the reference's own function of the six
  arguments, and its argument arrays end as launched.
-/
import proofs.«106283_j2465311228496_1_alg».proof.Proof.RegionArray
import proofs.«106283_j2465311228496_1_alg».proof.Proof.KernelTail
import proofs.«106283_j2465311228496_1_alg».proof.Proof.Slices
import proofs.«106283_j2465311228496_1_alg».proof.Proof.ChainsAgree

set_option maxRecDepth 16384

noncomputable section

namespace Cert.KernelIdeal.WholeRun

open Cert.KernelIdeal Cert.KernelIdeal.Gen Cert.Spmm
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The weight array the region finds: the two [128,128] matrices of the weights argument set side by side along the
    columns (each the reference's own reading of that matrix: the slice of one support, its unit axis dropped). -/
theorem weights_entry (c : Dev nD) :
    (V m c main_v4 : S128x256.Idx → EReal)
      = concatenate S128x256 1
          [⟨S128x128, Cert.ReferenceIdeal.Read.val_main_v2 (F := Ideal) (m ((c : Thread nD τ).loc main_arg1))⟩,
           ⟨S128x128, Cert.ReferenceIdeal.Read.val_main_v4 (F := Ideal) (m ((c : Thread nD τ).loc main_arg1))⟩]
          concatenates_S128x128_S128x128_S128x256_d1 := by
  show StableHlo.after (hostOps0 (F := Ideal)) (fun b => m (c, b)) (Proc.devRef .tc main_v4) = _
  after_results
  rfl

/-- The result buffer after the lines that follow the region: the shared chain of the two column cuts of the region's
    output array and of the edge arguments as launched. -/
theorem result_read (c : Dev nD) :
    Pipeline.afterTail₀ cfgs (dats m) 0 (V0 m) [hostOps1, hostOps1_1] c main_v45
      = Cert.KernelIdeal.Chain.tail (F := Ideal) gather_S50000x128_S800000x1_S800000x128_1_0_n_n_0_1_1128
          scatter_S50000x128_S800000x1_S800000x128_1_0_0_1
          (extractStridedSlice S50000x128 ![0, 0] ((dats m 0 c).arrAt 2 cfg0.N) slices_S50000x256_S50000x128_0_0)
          (extractStridedSlice S50000x128 ![0, 128] ((dats m 0 c).arrAt 2 cfg0.N) slices_S50000x256_S50000x128_0_128)
          (m ((c : Thread nD τ).loc main_arg2)) (m ((c : Thread nD τ).loc main_arg3))
          (m ((c : Thread nD τ).loc main_arg4)) (m ((c : Thread nD τ).loc main_arg5)) := by
  unfold Pipeline.afterTail₀
  have hl : ([hostOps1, hostOps1_1] : List (List (HloOp τ sig (Elt Ideal)))).flatten = hostOps1 ++ hostOps1_1 := by
    simp only [List.flatten_cons, List.flatten_nil, List.append_nil]
  rw [hl, Cert.KernelIdeal.AfterRegion.lines_after]
  have h5 : Pipeline.withArrays spec0 c (V0 m c) (fun w => (dats m 0 c).arrAt w cfg0.N) (Proc.devRef .tc main_v5)
      = (dats m 0 c).arrAt 2 cfg0.N :=
    Pipeline.withArrays_arr spec0 launch0.win.arr_inj c (V0 m c) (fun w => (dats m 0 c).arrAt w cfg0.N) 2
  have h2 := (Pipeline.withArrays_of_ne spec0 c (V0 m c) (fun w => (dats m 0 c).arrAt w cfg0.N) main_arg2
    (by exact (by decide : ∀ w, Pipeline.arrRef spec0 w ≠ main_arg2))).trans (V_main_arg2 m c)
  have h3 := (Pipeline.withArrays_of_ne spec0 c (V0 m c) (fun w => (dats m 0 c).arrAt w cfg0.N) main_arg3
    (by exact (by decide : ∀ w, Pipeline.arrRef spec0 w ≠ main_arg3))).trans (V_main_arg3 m c)
  have h4 := (Pipeline.withArrays_of_ne spec0 c (V0 m c) (fun w => (dats m 0 c).arrAt w cfg0.N) main_arg4
    (by exact (by decide : ∀ w, Pipeline.arrRef spec0 w ≠ main_arg4))).trans (V_main_arg4 m c)
  have h6 := (Pipeline.withArrays_of_ne spec0 c (V0 m c) (fun w => (dats m 0 c).arrAt w cfg0.N) main_arg5
    (by exact (by decide : ∀ w, Pipeline.arrRef spec0 w ≠ main_arg5))).trans (V_main_arg5 m c)
  rw [h2, h3, h4, h6, h5]

/-- The left 128 columns of the region's output are the reference's first dense product x · W0. -/
theorem left_cut (c : Dev nD) :
    extractStridedSlice S50000x128 ![0, 0] ((dats m 0 c).arrAt 2 cfg0.N) slices_S50000x256_S50000x128_0_0
      = Cert.ReferenceIdeal.Read.val_main_v5 (F := Ideal)
          (m ((c : Thread nD τ).loc main_arg0)) (m ((c : Thread nD τ).loc main_arg1)) := by
  rw [Cert.KernelIdeal.Region.region_array, weights_entry, V_main_arg0]
  exact Cert.Spmm.left_columns _ _ concatenates_S128x128_S128x128_S128x256_d1 slices_S50000x256_S50000x128_0_0

/-- The right 128 columns are its second dense product x · W1. -/
theorem right_cut (c : Dev nD) :
    extractStridedSlice S50000x128 ![0, 128] ((dats m 0 c).arrAt 2 cfg0.N) slices_S50000x256_S50000x128_0_128
      = Cert.ReferenceIdeal.Read.val_main_v24 (F := Ideal)
          (m ((c : Thread nD τ).loc main_arg0)) (m ((c : Thread nD τ).loc main_arg1)) := by
  rw [Cert.KernelIdeal.Region.region_array, weights_entry, V_main_arg0]
  exact Cert.Spmm.right_columns _ _ concatenates_S128x128_S128x128_S128x256_d1 slices_S50000x256_S50000x128_0_128

/-- The kernel program's result is the reference's function of the arguments: the chain of the two cuts, the chain
    being one function in both programs and the cuts the reference's two dense products. -/
theorem result_eq (c : Dev nD) :
    Pipeline.afterTail₀ cfgs (dats m) 0 (V0 m) [hostOps1, hostOps1_1] c main_v45
      = Cert.ReferenceIdeal.Read.val_main_v43 (F := Ideal)
          (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) :=
  (result_read m c).trans <|
  (Cert.Spmm.kernel_chain_eq _ _ _ _ _ _).trans <|
  (congrArg₂ (fun p0 p1 => Cert.ReferenceIdeal.Chain.tail (F := Ideal)
        Cert.ReferenceIdeal.gather_S50000x128_S800000x1_S800000x128_1_0_n_n_0_1_1128
        Cert.ReferenceIdeal.scatter_S50000x128_S800000x1_S800000x128_1_0_0_1 p0 p1
        (m ((c : Thread nD τ).loc main_arg2)) (m ((c : Thread nD τ).loc main_arg3))
        (m ((c : Thread nD τ).loc main_arg4)) (m ((c : Thread nD τ).loc main_arg5)))
      (left_cut m c) (right_cut m c)).trans
  (Cert.ReferenceIdeal.Chain.reference_is_tail _ _ _ _ _ _).symm

/-- Every weakly fair execution of the kernel program terminates with the result buffer at the reference's function of
    the arguments and the argument arrays as launched. -/
theorem run : θ_run defs (onTc (τ := τ) (main (F := Ideal))) ⟨m, fun _ => 0, ρ⟩ fun r => ∀ c : Dev nD,
      r.2.mem ((c.tc : Thread nD τ).loc main_v45)
        = Cert.ReferenceIdeal.Read.val_main_v43 (F := Ideal)
            (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v45 (Pipeline.mem_restRefs_of main_v45 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.WholeRun

end
-- ==== Proof.lean ====
/-
  A graph layer with two supports: out = max(0, A0 · (x · W0) + A1 · (x · W1)), each A a sparse 50000 × 50000 matrix
  given by 800000 (row, column, weight) edges, x : [50000,128], W0, W1 : [128,128].

  The reference forms the two dense products x · W0 and x · W1 separately. The kernel program sets W0 and W1 side by
  side, [W0 | W1] : [128,256], computes x · [W0 | W1] in one tiled region (ten row blocks of 5000, each block's product
  taken with inputs narrowed to a shorter float format and accumulated from zero), and cuts the [50000,256] result into
  its left and right 128 columns. Everything after the two products — gathering the product's rows at the edges' column
  indices, scaling by the edge weights, scatter-adding at the row indices, the two additions and the maximum with
  zero — is the same chain of operations in both programs.

  On the extended reals a change of float format is the identity and a product accumulated from zero is the bare sum, so
  entry (r, q) of the region's output is the sum over k of x(r, k) · [W0 | W1](k, q); for q < 128 the factor
  [W0 | W1](k, q) is W0(k, q) and for q ≥ 128 it is W1(k, q − 128). Each cut is therefore the reference's product, term by
  term of the same sum over k — no law of arithmetic is used, so the precondition (finite inputs) is never opened — and
  the shared chain, applied to equal arrays, gives equal results. The idealization rewrote nothing, so `preserves` is
  `True`; the three frames are the generated frame runs.
-/
import proofs.«106283_j2465311228496_1_alg».proof.Defs
import proofs.«106283_j2465311228496_1_alg».proof.Proof.Gen.Kernel
import proofs.«106283_j2465311228496_1_alg».proof.Proof.Gen.Kernel.Skeleton
import proofs.«106283_j2465311228496_1_alg».proof.Proof.Gen.Kernel.Launch
import proofs.«106283_j2465311228496_1_alg».proof.Proof.Gen.Kernel.Points
import proofs.«106283_j2465311228496_1_alg».proof.Proof.Gen.Kernel.Frame
import proofs.«106283_j2465311228496_1_alg».proof.Proof.Gen.KernelIdeal
import proofs.«106283_j2465311228496_1_alg».proof.Proof.Gen.KernelIdeal.Skeleton
import proofs.«106283_j2465311228496_1_alg».proof.Proof.Gen.KernelIdeal.Launch
import proofs.«106283_j2465311228496_1_alg».proof.Proof.Gen.KernelIdeal.Points
import proofs.«106283_j2465311228496_1_alg».proof.Proof.Gen.KernelIdeal.Frame
import proofs.«106283_j2465311228496_1_alg».proof.Proof.Gen.ReferenceIdeal
import proofs.«106283_j2465311228496_1_alg».proof.Proof.Gen.Pre_finite_inputs
import proofs.«106283_j2465311228496_1_alg».proof.Proof.Gen.ReferenceIdeal.Run
import proofs.«106283_j2465311228496_1_alg».proof.Proof.Gen.ReferenceIdeal.Read
import proofs.«106283_j2465311228496_1_alg».proof.Proof.KernelRun
import Idealize.ShloMosaic.Adequacy
import Idealize.ShloMosaic.Init

noncomputable section

namespace Cert.Proof

open Idealize.ShloMosaic Idealize.ShloMosaic.TcCoe Idealize.SL.Sem

/-- The kernel program as printed runs, faults nowhere and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments both idealized programs end with the same result: the reference's
    function of the arguments — the shared chain of x · W0 and x · W1 — which the kernel program reaches as the chain of
    the two column cuts of x · [W0 | W1]. -/
theorem algebraic : Cert.algebraic_KernelIdeal_ReferenceIdeal := by
  intro m ρ m' ρ' _ hagree
  refine ⟨fun c => Cert.ReferenceIdeal.Read.val_main_v43 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.WholeRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5]
  exact Cert.ReferenceIdeal.Read.val_main_v43_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
